-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x384 : Shape := ⟨3, ![8, 64, 384]⟩
abbrev S_ : Shape := ⟨0, ![]⟩

class Facts : Prop where
  bcast_S_S8x64x384 : S_.BroadcastsInDim S8x64x384 (![] : Fin 0 → Fin S8x64x384.rank)
  reducesTo_S8x64x384_S_d0_1_2 : S8x64x384.ReducesTo [0, 1, 2] S_
  h_S_ : 0 < S_.numel

variable [Facts]

def fn {F : FTy → Type} [FloatOps F] (main_arg0 : FVec F S8x64x384 .f32) (main_arg1 : FVec F S8x64x384 .f32) : IVec S_ 1 :=
  let main_v0 : FVec F S8x64x384 .f32 := Host.absf main_arg0
  let main_cst : FVec F S_ .f32 := constant S_ .f32 0x7F800000#32
  let main_v1 : FVec F S8x64x384 .f32 := broadcastInDim S8x64x384 ![] bcast_S_S8x64x384 main_cst
  let main_v2 : IVec S8x64x384 1 := cmpf .olt main_v0 main_v1
  let main_c : IVec S_ 1 := constantI S_ 1 1#1
  let main_v3 : IVec S_ 1 := (fun x v => Host.reduce IntOp.andi x v reducesTo_S8x64x384_S_d0_1_2 h_S_) main_v2 main_c
  let main_v4 : FVec F S8x64x384 .f32 := Host.absf main_arg1
  let main_cst_0 : FVec F S_ .f32 := constant S_ .f32 0x7F800000#32
  let main_v5 : FVec F S8x64x384 .f32 := broadcastInDim S8x64x384 ![] bcast_S_S8x64x384 main_cst_0
  let main_v6 : IVec S8x64x384 1 := cmpf .olt main_v4 main_v5
  let main_c_1 : IVec S_ 1 := constantI S_ 1 1#1
  let main_v7 : IVec S_ 1 := (fun x v => Host.reduce IntOp.andi x v reducesTo_S8x64x384_S_d0_1_2 h_S_) main_v6 main_c_1
  let main_v8 : IVec S_ 1 := andi main_v3 main_v7
  main_v8
-- ==== Kernel.lean ====
abbrev S8x64x384 : Shape := ⟨3, ![8, 64, 384]⟩
abbrev S8x128x384x384 : Shape := ⟨4, ![8, 128, 384, 384]⟩
abbrev S1x64x128 : Shape := ⟨3, ![1, 64, 128]⟩
abbrev S1x128x128x128 : Shape := ⟨4, ![1, 128, 128, 128]⟩
abbrev S64x128 : Shape := ⟨2, ![64, 128]⟩
abbrev S64x128x1 : Shape := ⟨3, ![64, 128, 1]⟩
abbrev S64x1x128 : Shape := ⟨3, ![64, 1, 128]⟩
abbrev S64x128x128 : Shape := ⟨3, ![64, 128, 128]⟩
abbrev S128x128x128 : Shape := ⟨3, ![128, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x64x384, .f32⟩
  | .hbm, ⟨1, _⟩ => ⟨S8x64x384, .f32⟩
  | .hbm, ⟨2, _⟩ => ⟨S8x128x384x384, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x128x128x128, .f32⟩
  | .local _ .vmem, ⟨5, _⟩ => ⟨S1x128x128x128, .f32⟩
  | _, _ => ⟨S8x64x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  concatenates_S64x128x128_S64x128x128_S128x128x128_d0 : Shape.Concatenates [S64x128x128, S64x128x128] S128x128x128 0
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S8x64x384.size a
  hwx0_0 : ∀ i : grid0.Coords, EltTy.bits .f32 = 32 ∨ (Rect.block (s := S8x64x384) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S8x64x384.size a
  hwx0_1 : ∀ i : grid0.Coords, EltTy.bits .f32 = 32 ∨ (Rect.block (s := S8x64x384) S1x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128x128.size a ≤ S8x128x384x384.size a
  hwx0_2 : ∀ i : grid0.Coords, EltTy.bits .f32 = 32 ∨ (Rect.block (s := S8x128x384x384) S1x128x128x128.size (cc0_transform_2 i) (hinb0_2 i)).WholeWords (EltTy.packing .f32)

variable [Facts₀]

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x384 : Shape := ⟨3, ![8, 64, 384]⟩
abbrev S8x64x384x1 : Shape := ⟨4, ![8, 64, 384, 1]⟩
abbrev S8x64x1x384 : Shape := ⟨4, ![8, 64, 1, 384]⟩
abbrev S8x64x384x384 : Shape := ⟨4, ![8, 64, 384, 384]⟩
abbrev S8x128x384x384 : Shape := ⟨4, ![8, 128, 384, 384]⟩

abbrev nBuf : Space → Nat
  | .hbm => 14
  | .vmem => 0
  | .smem => 0
  | _ => 0

abbrev bufTy : (tb : Table) → Fin (tcTables nBuf tb) → BufTy
  | .hbm, ⟨0, _⟩ => ⟨S8x64x384, .f32⟩
  | .hbm, ⟨1, _⟩ => ⟨S8x64x384, .f32⟩
  | .hbm, ⟨2, _⟩ => ⟨S8x64x384x1, .f32⟩
  | .hbm, ⟨3, _⟩ => ⟨S8x64x1x384, .f32⟩
  | .hbm, ⟨4, _⟩ => ⟨S8x64x384x384, .f32⟩
  | .hbm, ⟨5, _⟩ => ⟨S8x64x384x384, .f32⟩
  | .hbm, ⟨6, _⟩ => ⟨S8x64x384x384, .f32⟩
  | .hbm, ⟨7, _⟩ => ⟨S8x64x384x384, .f32⟩
  | .hbm, ⟨8, _⟩ => ⟨S8x64x384x1, .f32⟩
  | .hbm, ⟨9, _⟩ => ⟨S8x64x1x384, .f32⟩
  | .hbm, ⟨10, _⟩ => ⟨S8x64x384x384, .f32⟩
  | .hbm, ⟨11, _⟩ => ⟨S8x64x384x384, .f32⟩
  | .hbm, ⟨12, _⟩ => ⟨S8x64x384x384, .f32⟩
  | .hbm, ⟨13, _⟩ => ⟨S8x128x384x384, .f32⟩
  | _, _ => ⟨S8x64x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]

class Facts₀ : Prop where
  bcast_S8x64x384_S8x64x384x1_0_1_2 : S8x64x384.BroadcastsInDim S8x64x384x1 (![0, 1, 2] : Fin 3 → Fin S8x64x384x1.rank)
  bcast_S8x64x384_S8x64x1x384_0_1_3 : S8x64x384.BroadcastsInDim S8x64x1x384 (![0, 1, 3] : Fin 3 → Fin S8x64x1x384.rank)
  bcast_S8x64x384x1_S8x64x384x384_0_1_2_3 : S8x64x384x1.BroadcastsInDim S8x64x384x384 (![0, 1, 2, 3] : Fin 4 → Fin S8x64x384x384.rank)
  bcast_S8x64x1x384_S8x64x384x384_0_1_2_3 : S8x64x1x384.BroadcastsInDim S8x64x384x384 (![0, 1, 2, 3] : Fin 4 → Fin S8x64x384x384.rank)
  concatenates_S8x64x384x384_S8x64x384x384_S8x128x384x384_d1 : Shape.Concatenates [S8x64x384x384, S8x64x384x384] S8x128x384x384 1

variable [Facts₀]

class Facts : Prop extends Facts₀ where

variable [Facts]
-- ==== Proof.PairSpec.lean ====
/-
  What both programs of this certificate compute, as ONE function of the two argument arrays.

  The arguments are two arrays s1, s2 of shape [8, 64, 384] (batch, channel, position). The result has shape
  [8, 128, 384, 384]: its channel axis is two halves of 64 channels each. At (b, c, i, j)
    * in the first half  (c < 64)  the entry is |s1 (b, c, i) - s2 (b, c, j)|,
    * in the second half (c ≥ 64)  the entry is  s1 (b, c - 64, i) * s2 (b, c - 64, j).
  Both halves read s1 at (b, c mod 64, i) and s2 at (b, c mod 64, j); the half is c / 64. The function is stated for any
  float instance: no law of arithmetic is used anywhere in this certificate, only where each entry is read.
-/
import Idealize.ShloMosaic.PureOps.Ideal
import Idealize.ShloMosaic.Lib.ValueIdx

noncomputable section

namespace Cert.PairSpec

open Idealize.ShloMosaic

/-- The shape of each argument: batch 8, channels 64, positions 384. -/
abbrev Seq : Shape := ⟨3, ![8, 64, 384]⟩
/-- The shape of the result: batch 8, 2 · 64 channels, positions 384 × 384. -/
abbrev Out : Shape := ⟨4, ![8, 128, 384, 384]⟩

variable {F : FTy → Type} [FloatOps F]

/-- Where the result's entry (b, c, i, j) reads the first argument: (b, c mod 64, i). -/
def rowIdx (o : Out.Idx) : Seq.Idx := fun a => match a with
  | ⟨0, _⟩ => ⟨(o 0).val, (o 0).isLt⟩
  | ⟨1, _⟩ => ⟨(o 1).val % 64, Nat.mod_lt _ (by decide)⟩
  | ⟨2, _⟩ => ⟨(o 2).val, (o 2).isLt⟩

/-- Where the result's entry (b, c, i, j) reads the second argument: (b, c mod 64, j). -/
def colIdx (o : Out.Idx) : Seq.Idx := fun a => match a with
  | ⟨0, _⟩ => ⟨(o 0).val, (o 0).isLt⟩
  | ⟨1, _⟩ => ⟨(o 1).val % 64, Nat.mod_lt _ (by decide)⟩
  | ⟨2, _⟩ => ⟨(o 3).val, (o 3).isLt⟩

/-- Which half of the channel axis the entry (b, c, i, j) lies in: c / 64. -/
def halfOf (o : Out.Idx) : Fin 2 :=
  ⟨(o 1).val / 64, by have h : (o 1).val < 128 := (o 1).isLt; omega⟩

/-- One entry of half `n` from the entry `x` of the first argument and the entry `y` of the second: the absolute
    difference in the first half, the product in the second. -/
def pair (n : Fin 2) (x y : Elt F .f32) : Elt F .f32 := match n with
  | ⟨0, _⟩ => FloatOps.absf (FloatOps.subf x y)
  | ⟨1, _⟩ => FloatOps.mulf x y

/-- The whole result as a function of the two arguments, entry by entry. -/
def table (s1 s2 : Seq.Idx → Elt F .f32) : Out.Idx → Elt F .f32 :=
  fun o => pair (halfOf o) (s1 (rowIdx o)) (s2 (colIdx o))

end Cert.PairSpec

end
-- ==== Proof.BlockEntry.lean ====
/-
  One grid point of the kernel: what its body leaves in the result's block, entry by entry.

  At a grid point the body holds a block P0 of the first argument and a block P1 of the second, each of shape
  [1, 64, 128] (one batch entry, all 64 channels, 128 positions), and writes a block of shape [1, 128, 128, 128].
  It drops the unit axis, lays P0 out as [64, 128, 1] and spreads it along a new last axis, lays P1 out as
  [64, 1, 128] and spreads it along a new middle axis, takes the absolute difference and the product of the two
  spreads, and joins the two [64, 128, 128] results along the channel axis. So at (0, c, i, j) the block holds,
  for the half c / 64, the pairing of P0 (0, c mod 64, i) with P1 (0, c mod 64, j).
  The join along the channel axis is already resolved (the block as the operand c / 64 read at (c mod 64, i, j));
  what is done here is reading the two spreads back to the blocks.
-/
import proofs.«149259_j4629974745109_1_alg».proof.Proof.Gen.KernelIdeal.Value
import proofs.«149259_j4629974745109_1_alg».proof.Proof.PairSpec

noncomputable section

namespace Cert.KernelIdeal.BlockEntry

open Cert.KernelIdeal Cert.KernelIdeal.Gen Idealize.ShloMosaic Idealize.ShloMosaic.TcCoe Idealize.SL.Sem
open Cert.PairSpec

variable {F : FTy → Type} [FloatOps F]

/-- Where the block entry (0, c, i, j) reads the first argument's block: (0, c mod 64, i). -/
def rowIn (y : S1x128x128x128.Idx) : S1x64x128.Idx := fun a => match a with
  | ⟨0, _⟩ => ⟨0, Nat.one_pos⟩
  | ⟨1, _⟩ => ⟨(y 1).val % 64, Nat.mod_lt _ (by decide)⟩
  | ⟨2, _⟩ => ⟨(y 2).val, (y 2).isLt⟩

/-- Where the block entry (0, c, i, j) reads the second argument's block: (0, c mod 64, j). -/
def colIn (y : S1x128x128x128.Idx) : S1x64x128.Idx := fun a => match a with
  | ⟨0, _⟩ => ⟨0, Nat.one_pos⟩
  | ⟨1, _⟩ => ⟨(y 1).val % 64, Nat.mod_lt _ (by decide)⟩
  | ⟨2, _⟩ => ⟨(y 3).val, (y 3).isLt⟩

/-- The first block spread along a new LAST axis, read at (c mod 64, i, j), is the block at (0, c mod 64, i):
    the spread forgets j, the two casts keep the row-major position. -/
theorem rows_entry (P0 : Vec F S1x64x128 .f32) (y : S1x128x128x128.Idx) :
    broadcastTo S64x128x128 (shapeCast S64x128x1 (shapeCast S64x128 P0 shapeCasts_S1x64x128_S64x128) shapeCasts_S64x128_S64x128x1) broadcasts_S64x128x1_S64x128x128 (Value.ix2_0 y)
      = P0 (rowIn y) := by
  have hy1 : (y 1).val < 128 := (y 1).isLt
  have hy2 : (y 2).val < 128 := (y 2).isLt
  have hy3 : (y 3).val < 128 := (y 3).isLt
  refine (broadcastTo_apply _ _ (Value.ix2_0 y)
    (fun a => match a with
      | ⟨0, _⟩ => ⟨(y 1).val % 64, Nat.mod_lt _ (by decide)⟩
      | ⟨1, _⟩ => ⟨(y 2).val, hy2⟩
      | ⟨2, _⟩ => ⟨0, Nat.one_pos⟩ : S64x128x1.Idx)
    (fun a => match a with
      | ⟨0, _⟩ => by show (y 1).val % 64 = if (64 : Nat) = 1 then 0 else (y 1).val % 64; rw [if_neg (by decide)]
      | ⟨1, _⟩ => by show (y 2).val = if (128 : Nat) = 1 then 0 else (y 2).val; rw [if_neg (by decide)]
      | ⟨2, _⟩ => by show 0 = if (1 : Nat) = 1 then 0 else (y 3).val; rw [if_pos rfl])).trans ?_
  refine (shapeCast_apply _ _ _
    (fun a => match a with
      | ⟨0, _⟩ => ⟨(y 1).val % 64, Nat.mod_lt _ (by decide)⟩
      | ⟨1, _⟩ => ⟨(y 2).val, hy2⟩ : S64x128.Idx)
    (by rw [Shape.rowMajor_val_two, Shape.rowMajor_val_three]
        show (y 1).val % 64 * 128 + (y 2).val = ((y 1).val % 64 * 128 + (y 2).val) * 1 + 0
        omega)).trans ?_
  exact shapeCast_apply _ _ _ (rowIn y)
    (by rw [Shape.rowMajor_val_three, Shape.rowMajor_val_two]
        show (0 * 64 + (y 1).val % 64) * 128 + (y 2).val = (y 1).val % 64 * 128 + (y 2).val
        omega)

/-- The second block spread along a new MIDDLE axis, read at (c mod 64, i, j), is the block at (0, c mod 64, j):
    the spread forgets i, the two casts keep the row-major position. -/
theorem cols_entry (P1 : Vec F S1x64x128 .f32) (y : S1x128x128x128.Idx) :
    broadcastTo S64x128x128 (shapeCast S64x1x128 (shapeCast S64x128 P1 shapeCasts_S1x64x128_S64x128) shapeCasts_S64x128_S64x1x128) broadcasts_S64x1x128_S64x128x128 (Value.ix2_0 y)
      = P1 (colIn y) := by
  have hy1 : (y 1).val < 128 := (y 1).isLt
  have hy2 : (y 2).val < 128 := (y 2).isLt
  have hy3 : (y 3).val < 128 := (y 3).isLt
  refine (broadcastTo_apply _ _ (Value.ix2_0 y)
    (fun a => match a with
      | ⟨0, _⟩ => ⟨(y 1).val % 64, Nat.mod_lt _ (by decide)⟩
      | ⟨1, _⟩ => ⟨0, Nat.one_pos⟩
      | ⟨2, _⟩ => ⟨(y 3).val, hy3⟩ : S64x1x128.Idx)
    (fun a => match a with
      | ⟨0, _⟩ => by show (y 1).val % 64 = if (64 : Nat) = 1 then 0 else (y 1).val % 64; rw [if_neg (by decide)]
      | ⟨1, _⟩ => by show 0 = if (1 : Nat) = 1 then 0 else (y 2).val; rw [if_pos rfl]
      | ⟨2, _⟩ => by show (y 3).val = if (128 : Nat) = 1 then 0 else (y 3).val; rw [if_neg (by decide)])).trans ?_
  refine (shapeCast_apply _ _ _
    (fun a => match a with
      | ⟨0, _⟩ => ⟨(y 1).val % 64, Nat.mod_lt _ (by decide)⟩
      | ⟨1, _⟩ => ⟨(y 3).val, hy3⟩ : S64x128.Idx)
    (by rw [Shape.rowMajor_val_two, Shape.rowMajor_val_three]
        show (y 1).val % 64 * 128 + (y 3).val = ((y 1).val % 64 * 1 + 0) * 128 + (y 3).val
        omega)).trans ?_
  exact shapeCast_apply _ _ _ (colIn y)
    (by rw [Shape.rowMajor_val_three, Shape.rowMajor_val_two]
        show (0 * 64 + (y 1).val % 64) * 128 + (y 3).val = (y 1).val % 64 * 128 + (y 3).val
        omega)

/-- THE BLOCK, entry by entry: at (0, c, i, j) the pairing, for the half c / 64, of the first block at
    (0, c mod 64, i) with the second block at (0, c mod 64, j). -/
theorem block_entry (P0 P1 : Vec F S1x64x128 .f32) (y : S1x128x128x128.Idx) :
    Value.E2 P0 P1 y = pair (Value.csel2_0 y) (P0 (rowIn y)) (P1 (colIn y)) := by
  have hL := rows_entry P0 y
  have hR := cols_entry P1 y
  show Value.Cat2_0 P0 P1 (Value.csel2_0 y) (Value.ix2_0 y) = _
  generalize Value.csel2_0 y = n
  match n with
  | ⟨0, _⟩ => exact congrArg₂ (fun a b => FloatOps.absf (FloatOps.subf a b)) hL hR
  | ⟨1, _⟩ => exact congrArg₂ (fun a b => FloatOps.mulf a b) hL hR

end Cert.KernelIdeal.BlockEntry

end
-- ==== Proof.Whole.lean ====
/-
  From grid points to the whole result array of the kernel.

  The grid has 8 · 3 · 3 points (b, p, q). Point (b, p, q) reads the block of the first argument at batch b and
  positions 128 p … 128 p + 127, the block of the second argument at batch b and positions 128 q … 128 q + 127 (all 64
  channels of each), and writes the block of the result at batch b, all 128 channels, positions
  (128 p …, 128 q …). A block's array coordinate is always (block index) · (block extent) + (coordinate inside the
  block), so the entry (0, c, i, j) of the block written at (b, p, q) is the entry (b, c, 128 p + i, 128 q + j) of the
  array, and it pairs the first argument at (b, c mod 64, 128 p + i) with the second at (b, c mod 64, 128 q + j): exactly
  what `PairSpec.table` says of that array entry. The blocks tile the array (the entry (b, c, i, j) lies in the block
  of the point (b, i / 128, j / 128)), so after the run the result array IS `PairSpec.table` of the arguments.
-/
import proofs.«149259_j4629974745109_1_alg».proof.Proof.BlockEntry

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.PairSpec

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-- The three index maps at a grid point, decided over the 72 points: both inputs move with the result's block on the
    batch axis, the first input with the result's third axis, the second with its fourth; no channel axis is tiled;
    and the result's block indices stay inside 8 × 1 × 3 × 3. -/
theorem idx_facts : ∀ t : Fin cfg0.N,
    win0_0.index t (0 : Fin 3) = win0_2.index t (0 : Fin 4)
    ∧ win0_0.index t (1 : Fin 3) = 0
    ∧ win0_0.index t (2 : Fin 3) = win0_2.index t (2 : Fin 4)
    ∧ win0_1.index t (0 : Fin 3) = win0_2.index t (0 : Fin 4)
    ∧ win0_1.index t (1 : Fin 3) = 0
    ∧ win0_1.index t (2 : Fin 3) = win0_2.index t (3 : Fin 4)
    ∧ win0_2.index t (1 : Fin 4) = 0
    ∧ win0_2.index t (0 : Fin 4) ≤ 7
    ∧ win0_2.index t (2 : Fin 4) ≤ 2
    ∧ win0_2.index t (3 : Fin 4) ≤ 2 :=
  (by decide +kernel : ∀ t : Fin grid0.N, _)

/-- Every block of the result is some grid point's. -/
theorem idx_onto : ∀ (q0 : Fin 8) (q2 : Fin 3) (q3 : Fin 3), ∃ t : Fin cfg0.N, win0_2.index t = ![q0.val, 0, q2.val, q3.val] :=
  (by decide +kernel : ∀ (q0 : Fin 8) (q2 : Fin 3) (q3 : Fin 3), ∃ t : Fin grid0.N, win0_2.index t = ![q0.val, 0, q2.val, q3.val])

/-- The pairing depends only on its half and its two operands. -/
theorem pair_congr {n n' : Fin 2} {x x' y y' : Elt F .f32} (hn : n = n') (hx : x = x') (hy : y = y') :
    pair n x y = pair n' x' y' := by rw [hn, hx, hy]

/-- WHAT POINT `t` WRITES BACK is block `t` of `table` of the argument arrays. -/
theorem flushed_eq (c : Dev nD) (t : Fin cfg0.N) :
    (dats m 0 c).flushed 2 t = ((cfg0.win 2).blk t).view.read (Elt F) (table (V m c main_arg0) (V m c main_arg1)) := by
  rw [Value.flushed2]
  unfold out0_2
  simp only [View.ld_unit_zero (S := S1x64x128) zero3]
  obtain ⟨e0, e1, e2, e3, e4, e5, e6, e7, e8, e9⟩ := idx_facts t
  funext j
  have hj0 : (j 0).val < 1 := (j 0).isLt
  have hj1 : (j 1).val < 128 := (j 1).isLt
  have hj2 : (j 2).val < 128 := (j 2).isLt
  have hj3 : (j 3).val < 128 := (j 3).isLt
  show View.canon [⟨r0_1, k0_pay1 (iblk m c 0 t) (iblk m c 1 t)⟩] j
    = table (V m c main_arg0) (V m c main_arg1) (((cfg0.win 2).blk t).view.emb j)
  refine (Value.canon2_eq (iblk m c 0 t) (iblk m c 1 t) j).trans ?_
  refine (BlockEntry.block_entry (iblk m c 0 t) (iblk m c 1 t) j).trans ?_
  show pair (Value.csel2_0 j) (V m c main_arg0 (((cfg0.win 0).blk t).view.emb (BlockEntry.rowIn j)))
      (V m c main_arg1 (((cfg0.win 1).blk t).view.emb (BlockEntry.colIn j)))
    = pair (halfOf (((cfg0.win 2).blk t).view.emb j)) (V m c main_arg0 (rowIdx (((cfg0.win 2).blk t).view.emb j)))
      (V m c main_arg1 (colIdx (((cfg0.win 2).blk t).view.emb j)))
  refine pair_congr ?_ (congrArg _ ?_) (congrArg _ ?_)
  · apply Fin.ext
    show (j 1).val / 64 = (win0_2.index t (1 : Fin 4) * 128 + 1 * (j 1).val) / 64
    omega
  · funext a; apply Fin.ext
    match a with
    | ⟨0, _⟩ => show win0_0.index t (0 : Fin 3) * 1 + 1 * 0 = win0_2.index t (0 : Fin 4) * 1 + 1 * (j 0).val; omega
    | ⟨1, _⟩ => show win0_0.index t (1 : Fin 3) * 64 + 1 * ((j 1).val % 64) = (win0_2.index t (1 : Fin 4) * 128 + 1 * (j 1).val) % 64; omega
    | ⟨2, _⟩ => show win0_0.index t (2 : Fin 3) * 128 + 1 * (j 2).val = win0_2.index t (2 : Fin 4) * 128 + 1 * (j 2).val; omega
  · funext a; apply Fin.ext
    match a with
    | ⟨0, _⟩ => show win0_1.index t (0 : Fin 3) * 1 + 1 * 0 = win0_2.index t (0 : Fin 4) * 1 + 1 * (j 0).val; omega
    | ⟨1, _⟩ => show win0_1.index t (1 : Fin 3) * 64 + 1 * ((j 1).val % 64) = (win0_2.index t (1 : Fin 4) * 128 + 1 * (j 1).val) % 64; omega
    | ⟨2, _⟩ => show win0_1.index t (2 : Fin 3) * 128 + 1 * (j 3).val = win0_2.index t (3 : Fin 4) * 128 + 1 * (j 3).val; omega

/-- An entry of the array lies in point `t`'s block iff each coordinate lies in the block's range on its axis. -/
theorem mem_blk (t : Fin cfg0.N) (i : S8x128x384x384.Idx) :
    i ∈ ((cfg0.win 2).blk t).view.set ↔ ∀ a : Fin 4, win0_2.index t a * S1x128x128x128.size a ≤ (i a).val
      ∧ (i a).val < win0_2.index t a * S1x128x128x128.size a + S1x128x128x128.size a := by
  show i ∈ ((View.whole main_v0).slice (win0_2.rect t)).set ↔ _
  rw [View.set_slice_whole, Rect.mem_set_unit]
  exact Iff.rfl

/-- The blocks tile the array: (b, c, i, j) lies in the block of the point whose block index is (b, 0, i / 128, j / 128). -/
theorem covered (i : S8x128x384x384.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 384 := (i 2).isLt
  have hi3 : (i 3).val < 384 := (i 3).isLt
  obtain ⟨t, ht⟩ := idx_onto ⟨(i 0).val, hi0⟩ ⟨(i 2).val / 128, by omega⟩ ⟨(i 3).val / 128, by omega⟩
  have q0 : win0_2.index t (0 : Fin 4) = (i 0).val := congrFun ht 0
  have q1 : win0_2.index t (1 : Fin 4) = 0 := congrFun ht 1
  have q2 : win0_2.index t (2 : Fin 4) = (i 2).val / 128 := congrFun ht 2
  have q3 : win0_2.index t (3 : Fin 4) = (i 3).val / 128 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- THE RESULT ARRAY after the run is `table` of the argument arrays. -/
theorem final (c : Dev nD) :
    (dats m 0 c).arrAt 2 cfg0.N = table (m ((c : Thread nD τ).loc main_arg0)) (m ((c : Thread nD τ).loc main_arg1)) :=
  (dats m 0 c).arrAt_eq_of_cover 2 (table (V m c main_arg0) (V m c main_arg1)) (fun t _ => flushed_eq m c t) covered

/-- The kernel's run with its result named: every weakly fair execution terminates with the result array at `table` of
    the arguments and the arguments unchanged. -/
theorem run : θ_run defs (onTc (τ := τ) (main (F := F))) ⟨m, fun _ => 0, ρ⟩ fun r => ∀ c : Dev nD,
      r.2.mem ((c : Thread nD τ).loc main_v0) = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefTable.lean ====
/-
  The reference program's result, entry by entry, is `PairSpec.table` of its two arguments.

  The reference spreads the first argument [8, 64, 384] along a new last axis and the second along a new third axis to
  [8, 64, 384, 384], takes the absolute difference of the two spreads, then the product of the two spreads, and joins the
  two [8, 64, 384, 384] results along the channel axis. Read at (b, c, i, j): the join picks its operand c / 64 and
  reads it at (b, c mod 64, i, j); either operand there pairs the first argument at (b, c mod 64, i) with the second
  at (b, c mod 64, j). On the extended reals the host's absolute value is the same function as the kernel's.
-/
import proofs.«149259_j4629974745109_1_alg».proof.Proof.Gen.ReferenceIdeal.Read
import proofs.«149259_j4629974745109_1_alg».proof.Proof.PairSpec

noncomputable section

namespace Cert.ReferenceIdeal.RefTable

open Cert.ReferenceIdeal Cert.ReferenceIdeal.Gen Idealize.ShloMosaic Idealize.ShloMosaic.TcCoe Idealize.SL.Sem
open Cert.ReferenceIdeal.Read
open Cert.PairSpec

/-- The two operands of the join along the channel axis: the absolute differences, then the products. -/
def halves (x0 x1 : (⟨S8x64x384, .f32⟩ : BufTy).Contents (Elt Ideal)) : Fin 2 → (S8x64x384x384.Idx → Elt Ideal .f32) :=
  fun n => match n with
  | ⟨0, _⟩ => val_main_v5 (F := Ideal) x0 x1
  | ⟨1, _⟩ => val_main_v10 (F := Ideal) x0 x1

/-- Where the result's entry (b, c, i, j) is read inside its half: (b, c mod 64, i, j). -/
def inHalf (o : S8x128x384x384.Idx) : S8x64x384x384.Idx := fun a => match a with
  | ⟨0, _⟩ => ⟨(o 0).val, (o 0).isLt⟩
  | ⟨1, _⟩ => ⟨(o 1).val % 64, Nat.mod_lt _ (by decide)⟩
  | ⟨2, _⟩ => ⟨(o 2).val, (o 2).isLt⟩
  | ⟨3, _⟩ => ⟨(o 3).val, (o 3).isLt⟩

/-- The join read at (b, c, i, j): its operand c / 64 at (b, c mod 64, i, j). -/
theorem join_entry (x0 x1 : (⟨S8x64x384, .f32⟩ : BufTy).Contents (Elt Ideal)) (o : S8x128x384x384.Idx) :
    val_main_v11 (F := Ideal) x0 x1 o = halves x0 x1 (halfOf o) (inHalf o) := by
  unfold val_main_v11
  show concatenate S8x128x384x384 1 (List.ofFn fun n : Fin 2 => (⟨S8x64x384x384, halves x0 x1 n⟩ : (s : Shape) × (s.Idx → _))) _ o = _
  exact concatenate_ofFn_apply (t := S8x128x384x384) (s₁ := S8x64x384x384) (1 : Fin 4) (halves x0 x1) _ rfl 64 rfl o
    (halfOf o) rfl (inHalf o) rfl
    (fun b hb => by
      match b with
      | ⟨0, _⟩ => rfl
      | ⟨1, _⟩ => exact absurd rfl hb
      | ⟨2, _⟩ => rfl
      | ⟨3, _⟩ => rfl)

/-- THE REFERENCE'S RESULT at (b, c, i, j) is the pairing, for the half c / 64, of the first argument at
    (b, c mod 64, i) with the second at (b, c mod 64, j). -/
theorem ref_entry (x0 x1 : (⟨S8x64x384, .f32⟩ : BufTy).Contents (Elt Ideal)) (o : S8x128x384x384.Idx) :
    val_main_v11 (F := Ideal) x0 x1 o = table (F := Ideal) x0 x1 o := by
  have eL0 : idx_main_v0 (idx_main_v2 (inHalf o)) = rowIdx o :=
    funext fun a => Fin.ext (by match a with | ⟨0, _⟩ => rfl | ⟨1, _⟩ => rfl | ⟨2, _⟩ => rfl)
  have eR0 : idx_main_v1 (idx_main_v3 (inHalf o)) = colIdx o :=
    funext fun a => Fin.ext (by match a with | ⟨0, _⟩ => rfl | ⟨1, _⟩ => rfl | ⟨2, _⟩ => rfl)
  have eL1 : idx_main_v6 (idx_main_v8 (inHalf o)) = rowIdx o :=
    funext fun a => Fin.ext (by match a with | ⟨0, _⟩ => rfl | ⟨1, _⟩ => rfl | ⟨2, _⟩ => rfl)
  have eR1 : idx_main_v7 (idx_main_v9 (inHalf o)) = colIdx o :=
    funext fun a => Fin.ext (by match a with | ⟨0, _⟩ => rfl | ⟨1, _⟩ => rfl | ⟨2, _⟩ => rfl)
  rw [join_entry]
  show halves x0 x1 (halfOf o) (inHalf o) = pair (halfOf o) (x0 (rowIdx o)) (x1 (colIdx o))
  generalize halfOf o = n
  match n with
  | ⟨0, h0⟩ =>
    show val_main_v5 (F := Ideal) x0 x1 (inHalf o) = pair (F := Ideal) ⟨0, h0⟩ (x0 (rowIdx o)) (x1 (colIdx o))
    rw [val_main_v5_apply, val_main_v4_apply, val_main_v2_apply, val_main_v3_apply, val_main_v0_apply, val_main_v1_apply,
      eL0, eR0] <;> rfl
  | ⟨1, h1⟩ =>
    show val_main_v10 (F := Ideal) x0 x1 (inHalf o) = pair (F := Ideal) ⟨1, h1⟩ (x0 (rowIdx o)) (x1 (colIdx o))
    rw [val_main_v10_apply, val_main_v8_apply, val_main_v9_apply, val_main_v6_apply, val_main_v7_apply, eL1, eR1] <;> rfl

/-- The reference's result array is `table` of its arguments. -/
theorem ref_table (x0 x1 : (⟨S8x64x384, .f32⟩ : BufTy).Contents (Elt Ideal)) :
    val_main_v11 (F := Ideal) x0 x1 = table (F := Ideal) x0 x1 :=
  funext (ref_entry x0 x1)

end Cert.ReferenceIdeal.RefTable

end
-- ==== Proof.lean ====
/-
  The certificate of a pairwise ("outer") map of two sequences.

  Arguments s1, s2 : f32[8, 64, 384] (batch, channel, position); result f32[8, 128, 384, 384]. At (b, c, i, j) the
  result is |s1 (b, c, i) - s2 (b, c, j)| for c < 64 and s1 (b, c - 64, i) · s2 (b, c - 64, j) for c ≥ 64
  (`PairSpec.table`: the half c / 64 applied to s1 at (b, c mod 64, i) and s2 at (b, c mod 64, j)).

  The kernel computes it tile by tile over a grid of 8 · 3 · 3 points: a point takes a [64, 128] tile of each argument,
  spreads the first along a new last axis and the second along a new middle axis, and writes the joined
  [128, 128, 128] tile of absolute differences and products (`BlockEntry.block_entry`: one tile entry by entry;
  `Whole.final`: the tiles cover the array and each is the restriction of `table`). The reference computes it on
  whole arrays by the same spreads and one join along the channel axis (`RefTable.ref_table`). So both programs end
  with `table` of their arguments: the same operations on the same entries, with no law of arithmetic between them,
  which is why the finiteness of the inputs is never used.

  The three frames are the programs' runs with the result forgotten; the idealization rewrote no operation, so it
  preserves the kernel trivially.
-/
import proofs.«149259_j4629974745109_1_alg».proof.Defs
import proofs.«149259_j4629974745109_1_alg».proof.Proof.Gen.Kernel
import proofs.«149259_j4629974745109_1_alg».proof.Proof.Gen.Kernel.Skeleton
import proofs.«149259_j4629974745109_1_alg».proof.Proof.Gen.Kernel.Launch
import proofs.«149259_j4629974745109_1_alg».proof.Proof.Gen.Kernel.Points
import proofs.«149259_j4629974745109_1_alg».proof.Proof.Gen.Kernel.Frame
import proofs.«149259_j4629974745109_1_alg».proof.Proof.Gen.KernelIdeal
import proofs.«149259_j4629974745109_1_alg».proof.Proof.Gen.KernelIdeal.Skeleton
import proofs.«149259_j4629974745109_1_alg».proof.Proof.Gen.KernelIdeal.Launch
import proofs.«149259_j4629974745109_1_alg».proof.Proof.Gen.KernelIdeal.Points
import proofs.«149259_j4629974745109_1_alg».proof.Proof.Gen.KernelIdeal.Frame
import proofs.«149259_j4629974745109_1_alg».proof.Proof.Gen.KernelIdeal.Value
import proofs.«149259_j4629974745109_1_alg».proof.Proof.Gen.ReferenceIdeal
import proofs.«149259_j4629974745109_1_alg».proof.Proof.Gen.ReferenceIdeal.Run
import proofs.«149259_j4629974745109_1_alg».proof.Proof.Gen.ReferenceIdeal.Read
import proofs.«149259_j4629974745109_1_alg».proof.Proof.Gen.Pre_finite_inputs
import proofs.«149259_j4629974745109_1_alg».proof.Proof.Whole
import proofs.«149259_j4629974745109_1_alg».proof.Proof.RefTable
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- On the extended reals, from memories that agree on the two arguments, the kernel and the reference both end with
    `PairSpec.table` of the arguments in their result arrays. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefTable.ref_table, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
